-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1024x512 .f32) (main_arg1 : FVec F S1024x1024 .f32) (main_arg2 : FVec F S512x64 .f32) (main_arg3 : FVec F S64 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S1024x64 : Shape := ⟨2, ![1024, 64]⟩
abbrev S1x64 : Shape := ⟨2, ![1, 64]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x64, .f32⟩
  | .hbm, ⟨3, _⟩ => ⟨S64, .f32⟩
  | .hbm, ⟨4, _⟩ => ⟨S1024x64, .f32⟩
  | .local _ .vmem, ⟨0, _⟩ => ⟨S1024x512, .f32⟩
  | .local _ .vmem, ⟨1, _⟩ => ⟨S1024x1024, .f32⟩
  | .local _ .vmem, ⟨2, _⟩ => ⟨S512x64, .f32⟩
  | .local _ .vmem, ⟨3, _⟩ => ⟨S64, .f32⟩
  | .local _ .vmem, ⟨4, _⟩ => ⟨S1024x64, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  inb_S1024x512_S1024x512_0_0 : ∀ a, (![0, 0] : Fin 2 → Nat) a + S1024x512.size a ≤ S1024x512.size a
  h_S1024x512 : 0 < S1024x512.numel
  inb_S512x64_S512x64_0_0 : ∀ a, (![0, 0] : Fin 2 → Nat) a + S512x64.size a ≤ S512x64.size a
  h_S512x64 : 0 < S512x64.numel
  inb_S1024x1024_S1024x1024_0_0 : ∀ a, (![0, 0] : Fin 2 → Nat) a + S1024x1024.size a ≤ S1024x1024.size a
  h_S1024x1024 : 0 < S1024x1024.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x512_S512x64_S1024x64_1_0_0_1_n_n_wf : DotDims.WF S1024x512 S512x64 S1024x64 [1] [0] [0] [1] [] []
  dot_S1024x1024_S1024x64_S1024x64_1_0_0_1_n_n_wf : DotDims.WF S1024x1024 S1024x64 S1024x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v0) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x1024 : Shape := ⟨2, ![1024, 1024]⟩
abbrev S512x64 : Shape := ⟨2, ![512, 64]⟩
abbrev S64 : Shape := ⟨1, ![64]⟩
abbrev S1024x64 : Shape := ⟨2, ![1024, 64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x64, .f32⟩
  | .hbm, ⟨3, _⟩ => ⟨S64, .f32⟩
  | .hbm, ⟨4, _⟩ => ⟨S1024x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  dot_S1024x512_S512x64_S1024x64_1_0_0_1_n_n_wf : DotDims.WF S1024x512 S512x64 S1024x64 [1] [0] [0] [1] [] []
  dot_S1024x1024_S1024x64_S1024x64_1_0_0_1_n_n_wf : DotDims.WF S1024x1024 S1024x64 S1024x64 [1] [0] [0] [1] [] []

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

class Facts : Prop extends Facts₀ where

variable [Facts]
-- ==== Proof.KernelReads.lean ====
/-
  The kernel body's three non-pointwise operations, each read at an output index (r, c) on the extended reals.

  A block product accumulated into a zero block is, at (r, c), the sum over the contraction coordinate of the products of
  the left operand's row r and the right operand's column c: the zero accumulator adds nothing (0 + s = s for every
  extended real s, the infinite ones too), and a contraction over ONE axis is indexed by that axis's coordinate. The
  kernel has two such products: features [1024, 512] against weights [512, 64] (contraction coordinate l < 512), and the
  adjacency [1024, 1024] against a [1024, 64] block (contraction coordinate k < 1024). The bias vector [64] is laid out
  as one row [1, 64] and that row is repeated over 1024 rows: at (r, c) it reads b[c].
-/
import proofs.«135406_g80427557585491_cont_9to1_m_995_19_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Cert.KernelIdeal Cert.KernelIdeal.Gen
open Idealize.ShloMosaic Idealize.ShloMosaic.ValueIdx

/-! ## The features-by-weights product -/

/-- The left operand's row coordinate is the output's row. -/
theorem xw_lhs_row (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl

/-- Its column coordinate is the contraction coordinate. -/
theorem xw_lhs_col (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q

/-- The right operand's row coordinate is the contraction coordinate. -/
theorem xw_rhs_row (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q

/-- Its column coordinate is the output's column. -/
theorem xw_rhs_col (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- THE SUPPORT MATRIX the body forms first, at (k, c): Σ_l x[k, l] · w[l, c]. -/
theorem xw_apply (x : FVec Ideal S1024x512 .f32) (w : FVec Ideal S512x64 .f32) (k : Fin 1024) (c : Fin 64) :
    matmul dot_S1024x512_S512x64_S1024x64_1_0_0_1_n_n none x w (constant (F := Ideal) S1024x64 .f32 0x00000000#32) (ix2 k c)
      = ∑ l : Fin 512, x (ix2 k l) * w (ix2 l c) := by
  refine (Ideal.matmul_constant_zero_apply dot_S1024x512_S512x64_S1024x64_1_0_0_1_n_n none x w (ix2 k c)).trans ?_
  rw [← Equiv.sum_comp (contrEquiv1 dot_S1024x512_S512x64_S1024x64_1_0_0_1_n_n 512 rfl rfl).symm]
  refine Finset.sum_congr rfl fun l _ => ?_
  have hl := contrEquiv1_symm_val dot_S1024x512_S512x64_S1024x64_1_0_0_1_n_n 512 rfl rfl l
  have el : dot_S1024x512_S512x64_S1024x64_1_0_0_1_n_n.lhsIdx (ix2 k c)
      ((contrEquiv1 dot_S1024x512_S512x64_S1024x64_1_0_0_1_n_n 512 rfl rfl).symm l) = ix2 k l := funext fun a => Fin.ext (by
    match a with
    | ⟨0, _⟩ => exact xw_lhs_row _ _
    | ⟨1, _⟩ => exact (xw_lhs_col _ _).trans hl)
  have er : dot_S1024x512_S512x64_S1024x64_1_0_0_1_n_n.rhsIdx (ix2 k c)
      ((contrEquiv1 dot_S1024x512_S512x64_S1024x64_1_0_0_1_n_n 512 rfl rfl).symm l) = ix2 l c := funext fun a => Fin.ext (by
    match a with
    | ⟨0, _⟩ => exact (xw_rhs_row _ _).trans hl
    | ⟨1, _⟩ => exact xw_rhs_col _ _)
  rw [el, er]

/-! ## The adjacency-by-support product -/

/-- The left operand's row coordinate is the output's row. -/
theorem as_lhs_row (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl

/-- Its column coordinate is the contraction coordinate. -/
theorem as_lhs_col (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q

/-- The right operand's row coordinate is the contraction coordinate. -/
theorem as_rhs_row (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q

/-- Its column coordinate is the output's column. -/
theorem as_rhs_col (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- THE AGGREGATION along the adjacency's row, at (r, c), of any [1024, 64] block s: Σ_k adj[r, k] · s[k, c]. -/
theorem as_apply (adj : FVec Ideal S1024x1024 .f32) (s : FVec Ideal S1024x64 .f32) (r : Fin 1024) (c : Fin 64) :
    matmul dot_S1024x1024_S1024x64_S1024x64_1_0_0_1_n_n none adj s (constant (F := Ideal) S1024x64 .f32 0x00000000#32) (ix2 r c)
      = ∑ k : Fin 1024, adj (ix2 r k) * s (ix2 k c) := by
  refine (Ideal.matmul_constant_zero_apply dot_S1024x1024_S1024x64_S1024x64_1_0_0_1_n_n none adj s (ix2 r c)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r c)
      ((contrEquiv1 dot_S1024x1024_S1024x64_S1024x64_1_0_0_1_n_n 1024 rfl rfl).symm k) = ix2 r k := funext fun a => Fin.ext (by
    match a with
    | ⟨0, _⟩ => exact as_lhs_row _ _
    | ⟨1, _⟩ => exact (as_lhs_col _ _).trans hk)
  have er : dot_S1024x1024_S1024x64_S1024x64_1_0_0_1_n_n.rhsIdx (ix2 r c)
      ((contrEquiv1 dot_S1024x1024_S1024x64_S1024x64_1_0_0_1_n_n 1024 rfl rfl).symm k) = ix2 k c := funext fun a => Fin.ext (by
    match a with
    | ⟨0, _⟩ => exact (as_rhs_row _ _).trans hk
    | ⟨1, _⟩ => exact as_rhs_col _ _)
  rw [el, er]

/-! ## The bias -/

/-- The bias laid out as one row and repeated over the rows reads, at (r, c), the bias at c. -/
theorem bias_rows_apply (b : FVec Ideal S64 .f32) (r : Fin 1024) (c : Fin 64) :
    broadcastTo S1024x64 (shapeCast S1x64 b shapeCasts_S64_S1x64) broadcasts_S1x64_S1024x64 (ix2 r c) = b (ix1 c) :=
  (broadcastTo_1b_ab_apply (shapeCast S1x64 b shapeCasts_S64_S1x64) broadcasts_S1x64_S1024x64 r c).trans
    (shapeCast_a_1a_apply b shapeCasts_S64_S1x64 (0 : Fin 1) c)

end Cert.Gcn

end
-- ==== Proof.Layer.lean ====
/-
  The graph-convolution layer as ONE function of its four argument arrays, on the extended reals.

  For features x : [1024, 512], a dense adjacency adj : [1024, 1024], weights w : [512, 64] and a bias b : [64], the
  layer's entry at row r and column c is

      ( Σ_{k < 1024} adj[r, k] · ( Σ_{l < 512} x[k, l] · w[l, c] ) ) + b[c]:

  the support matrix x · w first, then its aggregation along the adjacency's row, then the bias of the column. The sums
  are sums of the commutative monoid of extended reals, so neither their order nor the way a machine blocks them is part
  of the function; and no step distributes a product over a sum, so the formula means the same at infinite entries as at
  finite ones.
-/
import Idealize.ShloMosaic.PureOps.Ideal
import Idealize.ShloMosaic.Lib.ValueIdx

noncomputable section

namespace Cert.Gcn

open Idealize.ShloMosaic Idealize.ShloMosaic.ValueIdx

/-- Entry (r, c) of the layer: the adjacency's row r against column c of the support matrix x · w, plus the bias at c. -/
def layerAt (x : (⟨2, ![1024, 512]⟩ : Shape).Idx → EReal) (adj : (⟨2, ![1024, 1024]⟩ : Shape).Idx → EReal)
    (w : (⟨2, ![512, 64]⟩ : Shape).Idx → EReal) (b : (⟨1, ![64]⟩ : Shape).Idx → EReal) (r : Fin 1024) (c : Fin 64) : EReal :=
  (∑ k : Fin 1024, adj (ix2 r k) * ∑ l : Fin 512, x (ix2 k l) * w (ix2 l c)) + b (ix1 c)

/-- The layer's whole [1024, 64] result, index by index. -/
def layer (x : (⟨2, ![1024, 512]⟩ : Shape).Idx → EReal) (adj : (⟨2, ![1024, 1024]⟩ : Shape).Idx → EReal)
    (w : (⟨2, ![512, 64]⟩ : Shape).Idx → EReal) (b : (⟨1, ![64]⟩ : Shape).Idx → EReal) :
    (⟨2, ![1024, 64]⟩ : Shape).Idx → EReal :=
  fun i => layerAt x adj w b (i 0) (i 1)

/-- At an index given by its two coordinates the layer is `layerAt` of them. -/
theorem layer_ix2 (x : (⟨2, ![1024, 512]⟩ : Shape).Idx → EReal) (adj : (⟨2, ![1024, 1024]⟩ : Shape).Idx → EReal)
    (w : (⟨2, ![512, 64]⟩ : Shape).Idx → EReal) (b : (⟨1, ![64]⟩ : Shape).Idx → EReal) (r : Fin 1024) (c : Fin 64) :
    layer x adj w b (ix2 r c) = layerAt x adj w b r c := rfl

end Cert.Gcn

end
-- ==== Proof.Payload.lean ====
/-
  The kernel body computes the layer of the blocks it loads.

  The body's one stored value is, as a function of its four loads (features, weights, adjacency, bias),

      ( adj ·₀ ( x ·₀ w ) ) + rows(b),

  where ·₀ is a block product accumulated into a zero block and rows(b) is the bias repeated over the rows. At (r, c) the
  outer product is Σ_k adj[r, k] · (x ·₀ w)[k, c], the inner one Σ_l x[k, l] · w[l, c], and rows(b) is b[c]: the layer's
  entry, with the sums grouped exactly as the layer groups them.
-/
import proofs.«135406_g80427557585491_cont_9to1_m_995_19_alg».proof.Proof.KernelReads
import proofs.«135406_g80427557585491_cont_9to1_m_995_19_alg».proof.Proof.Layer

noncomputable section

namespace Cert.Gcn

open Cert.KernelIdeal Cert.KernelIdeal.Gen
open Idealize.ShloMosaic Idealize.ShloMosaic.ValueIdx

/-- THE BODY'S STORED VALUE IS THE LAYER of its loads (the loads in the body's order: features, weights, adjacency, bias). -/
theorem payload_eq_layer (x : FVec Ideal S1024x512 .f32) (w : FVec Ideal S512x64 .f32) (adj : FVec Ideal S1024x1024 .f32)
    (b : FVec Ideal S64 .f32) : k0_pay1 (F := Ideal) x w adj b = layer x adj w b := by
  funext i
  obtain ⟨r, c, rfl⟩ : ∃ (r : Fin 1024) (c : Fin 64), i = ix2 r c := ⟨i 0, i 1, eq_ix2 i⟩
  rw [layer_ix2]
  unfold k0_pay1 layerAt
  refine (addf_apply _ _ (ix2 r c)).trans ?_
  refine congrArg₂ (· + ·) ?_ (bias_rows_apply b r c)
  refine (as_apply adj _ r c).trans (Finset.sum_congr rfl fun k _ => ?_)
  exact congrArg (adj (ix2 r k) * ·) (xw_apply x w k c)

end Cert.Gcn

end
-- ==== Proof.FinalArray.lean ====
/-
  The kernel's result array after the run is the layer of the argument arrays.

  The kernel has no grid: it is launched at one point, and every window's block there is its whole array, at block index
  zero on every axis. So an element of a block sits in its array at the same coordinates (block index × block size + the
  coordinate inside the block, with the block index zero), each input block IS its argument array, and what the one point
  writes back is the body's stored value of the four argument arrays — the layer of them. The one block covers the
  result array, so the array ends holding the layer everywhere.
-/
import proofs.«135406_g80427557585491_cont_9to1_m_995_19_alg».proof.Proof.Gen.KernelIdeal.Value
import proofs.«135406_g80427557585491_cont_9to1_m_995_19_alg».proof.Proof.Payload

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- At the one point every window's block index is zero on every axis (decided over the grid). -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

/-- The features' block is the features array. -/
theorem features_block (c : Dev nD) (t : Fin cfg0.N) (y : S1024x512.Idx) : iblk m c 0 t y = V m c main_arg0 y := by
  show V m c main_arg0 (((cfg0.win 0).blk t).view.emb y) = V m c main_arg0 y
  obtain ⟨e0, e1, -⟩ := index_zero t
  refine congrArg _ (funext fun a => Fin.ext ?_)
  match a with
  | ⟨0, _⟩ => show win0_0.index t (0 : Fin 2) * 1024 + 1 * (y 0).val = (y 0).val; omega
  | ⟨1, _⟩ => show win0_0.index t (1 : Fin 2) * 512 + 1 * (y 1).val = (y 1).val; omega

/-- The adjacency's block is the adjacency array. -/
theorem adjacency_block (c : Dev nD) (t : Fin cfg0.N) (y : S1024x1024.Idx) : iblk m c 1 t y = V m c main_arg1 y := by
  show V m c main_arg1 (((cfg0.win 1).blk t).view.emb y) = V m c main_arg1 y
  obtain ⟨-, -, e0, e1, -⟩ := index_zero t
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The weights' block is the weights array. -/
theorem weights_block (c : Dev nD) (t : Fin cfg0.N) (y : S512x64.Idx) : iblk m c 2 t y = V m c main_arg2 y := by
  show V m c main_arg2 (((cfg0.win 2).blk t).view.emb y) = V m c main_arg2 y
  obtain ⟨-, -, -, -, e0, e1, -⟩ := index_zero t
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 64 + 1 * (y 1).val = (y 1).val; omega

/-- The bias's block is the bias array. -/
theorem bias_block (c : Dev nD) (t : Fin cfg0.N) (y : S64.Idx) : iblk m c 3 t y = V m c main_arg3 y := by
  show V m c main_arg3 (((cfg0.win 3).blk t).view.emb y) = V m c main_arg3 y
  obtain ⟨-, -, -, -, -, -, e0, -⟩ := index_zero t
  refine congrArg _ (funext fun a => Fin.ext ?_)
  match a with
  | ⟨0, _⟩ => show win0_3.index t (0 : Fin 1) * 64 + 1 * (y 0).val = (y 0).val; omega

/-- WHAT THE POINT WRITES BACK is its block of the layer of the argument arrays. -/
theorem flushed_eq_layer (c : Dev nD) (t : Fin cfg0.N) :
    (dats m 0 c).flushed 4 t
      = ((cfg0.win 4).blk t).view.read (Elt Ideal) (layer (V m c main_arg0) (V m c main_arg1) (V m c main_arg2) (V m c main_arg3)) := by
  rw [Cert.KernelIdeal.Value.flushed4]
  unfold out0_4
  rw [View.canon_unit_zero zeros2]
  simp only [View.ld_unit_zero (S := S1024x512) zeros2, View.ld_unit_zero (S := S512x64) zeros2,
    View.ld_unit_zero (S := S1024x1024) zeros2, View.ld_unit_zero (S := S64) zeros1]
  have hx : (iblk m c 0 t : S1024x512.Idx → EReal) = V m c main_arg0 := funext (features_block m c t)
  have ha : (iblk m c 1 t : S1024x1024.Idx → EReal) = V m c main_arg1 := funext (adjacency_block m c t)
  have hw : (iblk m c 2 t : S512x64.Idx → EReal) = V m c main_arg2 := funext (weights_block m c t)
  have hb : (iblk m c 3 t : S64.Idx → EReal) = V m c main_arg3 := funext (bias_block m c t)
  rw [hx, ha, hw, hb, payload_eq_layer]
  obtain ⟨-, -, -, -, -, -, -, e0, e1⟩ := index_zero t
  funext j
  show layer (V m c main_arg0) (V m c main_arg1) (V m c main_arg2) (V m c main_arg3) j
    = layer (V m c main_arg0) (V m c main_arg1) (V m c main_arg2) (V m c main_arg3) (((cfg0.win 4).blk t).view.emb j)
  refine congrArg _ (funext fun a => Fin.ext ?_)
  match a with
  | ⟨0, _⟩ => show (j 0).val = win0_4.index t (0 : Fin 2) * 1024 + 1 * (j 0).val; omega
  | ⟨1, _⟩ => show (j 1).val = win0_4.index t (1 : Fin 2) * 64 + 1 * (j 1).val; omega

/-- An index of the result array is in the point's block iff each coordinate is in the block's range on its axis. -/
theorem mem_block (t : Fin cfg0.N) (i : S1024x64.Idx) :
    i ∈ ((cfg0.win 4).blk t).view.set
      ↔ ∀ a : Fin 2, win0_4.index t a * S1024x64.size a ≤ (i a).val ∧ (i a).val < win0_4.index t a * S1024x64.size a + S1024x64.size a := by
  show i ∈ ((View.whole main_v0).slice (win0_4.rect t)).set ↔ _
  rw [View.set_slice_whole, Rect.mem_set_unit]
  exact Iff.rfl

/-- The one point's block covers the result array. -/
theorem covered (i : S1024x64.Idx) : ∃ t : Fin cfg0.N, (cfg0.win 4).flush t = true ∧ i ∈ ((cfg0.win 4).blk t).view.set := by
  refine ⟨t0_0, flush0_4 t0_0, ?_⟩
  rw [mem_block]
  obtain ⟨-, -, -, -, -, -, -, e0, e1⟩ := index_zero t0_0
  have h0 : (i 0).val < 1024 := idx2_lt0 i
  have h1 : (i 1).val < 64 := idx2_lt1 i
  intro a
  match a with
  | ⟨0, _⟩ => show win0_4.index t0_0 (0 : Fin 2) * 1024 ≤ (i 0).val ∧ (i 0).val < win0_4.index t0_0 (0 : Fin 2) * 1024 + 1024; omega
  | ⟨1, _⟩ => show win0_4.index t0_0 (1 : Fin 2) * 64 ≤ (i 1).val ∧ (i 1).val < win0_4.index t0_0 (1 : Fin 2) * 64 + 64; omega

/-- THE RESULT ARRAY after the run is the layer of the argument arrays as launched. -/
theorem final_eq_layer (c : Dev nD) :
    (dats m 0 c).arrAt 4 cfg0.N
      = layer (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq_layer m c t) covered

/-- THE KERNEL'S RUN, READ: every weakly fair execution terminates with the result array at the layer of the arguments
    and the arguments unchanged. -/
theorem run_layer : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq_layer m c), (h c).2⟩)
    (Cert.KernelIdeal.Value.run_blocks m ρ)

end Cert.Gcn

end
-- ==== Proof.RefLayer.lean ====
/-
  The reference computes the layer.

  The reference is five host operations: the support matrix x · w as a dot_general contracting x's columns with w's rows,
  its product with the adjacency as a second dot_general contracting the adjacency's columns with the support's rows, the
  bias laid out as one row and that row repeated over the 1024 rows, and the sum of the two. Read at an output index
  (r, c), the second product is Σ_k adj[r, k] · support[k, c], the first Σ_l x[k, l] · w[l, c], and the repeated row is
  b[c]: term for term the layer's entry. Nothing is rearranged; only the operand indices the two contractions and the two
  broadcasts compute are identified with the coordinates (r, k), (k, l), (l, c) and (c).
-/
import proofs.«135406_g80427557585491_cont_9to1_m_995_19_alg».proof.Proof.Gen.ReferenceIdeal.Read
import proofs.«135406_g80427557585491_cont_9to1_m_995_19_alg».proof.Proof.Layer

noncomputable section

namespace Cert.Gcn

open Cert.ReferenceIdeal Cert.ReferenceIdeal.Gen Cert.ReferenceIdeal.Read
open Idealize.ShloMosaic Idealize.ShloMosaic.ValueIdx

/-- The adjacency operand of the second contraction at output (r, c) and contraction coordinate k is adj's (r, k). -/
theorem adj_idx (r : Fin 1024) (c : Fin 64) (k : Fin 1024) : lidx_main_v1 (ix2 r c) k = ix2 r k :=
  funext fun a => by match a with | ⟨0, _⟩ => rfl | ⟨1, _⟩ => rfl

/-- The support operand there is the support's (k, c). -/
theorem support_idx (r : Fin 1024) (c : Fin 64) (k : Fin 1024) : ridx_main_v1 (ix2 r c) k = ix2 k c :=
  funext fun a => by match a with | ⟨0, _⟩ => rfl | ⟨1, _⟩ => rfl

/-- The feature operand of the first contraction at output (k, c) and contraction coordinate l is x's (k, l). -/
theorem x_idx (k : Fin 1024) (c : Fin 64) (l : Fin 512) : lidx_main_v0 (ix2 k c) l = ix2 k l :=
  funext fun a => by match a with | ⟨0, _⟩ => rfl | ⟨1, _⟩ => rfl

/-- The weight operand there is w's (l, c). -/
theorem w_idx (k : Fin 1024) (c : Fin 64) (l : Fin 512) : ridx_main_v0 (ix2 k c) l = ix2 l c :=
  funext fun a => by match a with | ⟨0, _⟩ => rfl | ⟨1, _⟩ => rfl

/-- The bias repeated over the rows, read at (r, c), is the bias at c. -/
theorem bias_idx (r : Fin 1024) (c : Fin 64) : idx_main_v2 (idx_main_v3 (ix2 r c)) = ix1 c :=
  funext fun a => by match a with | ⟨0, _⟩ => rfl

/-- The support matrix the reference forms first, at (k, c): Σ_l x[k, l] · w[l, c]. -/
theorem support_apply (x0 : (⟨S1024x512, .f32⟩ : BufTy).Contents (Elt Ideal)) (x2 : (⟨S512x64, .f32⟩ : BufTy).Contents (Elt Ideal))
    (k : Fin 1024) (c : Fin 64) :
    val_main_v0 (F := Ideal) x0 x2 (ix2 k c) = ∑ l : Fin 512, x0 (ix2 k l) * x2 (ix2 l c) :=
  (val_main_v0_apply x0 x2 (ix2 k c)).trans
    (Finset.sum_congr rfl fun l _ => by rw [x_idx, w_idx])

/-- THE REFERENCE IS THE LAYER: the last stage of the reference's run, as a function of the four arguments, is `layer`. -/
theorem reference_eq_layer (x0 : (⟨S1024x512, .f32⟩ : BufTy).Contents (Elt Ideal)) (x1 : (⟨S1024x1024, .f32⟩ : BufTy).Contents (Elt Ideal))
    (x2 : (⟨S512x64, .f32⟩ : BufTy).Contents (Elt Ideal)) (x3 : (⟨S64, .f32⟩ : BufTy).Contents (Elt Ideal)) :
    val_main_v4 (F := Ideal) x0 x1 x2 x3 = layer x0 x1 x2 x3 := by
  funext i
  obtain ⟨r, c, rfl⟩ : ∃ (r : Fin 1024) (c : Fin 64), i = ix2 r c := ⟨i 0, i 1, eq_ix2 i⟩
  rw [layer_ix2, val_main_v4_apply, val_main_v1_apply, val_main_v3_apply, val_main_v2_apply, bias_idx]
  unfold layerAt
  refine congrArg (· + x3 (ix1 c)) (Finset.sum_congr rfl fun k _ => ?_)
  rw [adj_idx, support_idx, support_apply]

end Cert.Gcn

end
-- ==== Proof.lean ====
/-
  A graph-convolution layer, out = adj · (x · w) + b, for features x : [1024, 512], a dense adjacency adj : [1024, 1024],
  weights w : [512, 64] and a bias b : [64]: one kernel that forms both products and adds the bias on whole arrays,
  against the same three steps written with array operations.

  On the extended reals both programs compute ONE function of the four arrays (`Cert.Gcn.layer`, Proof/Layer.lean):

      out[r, c] = ( Σ_{k < 1024} adj[r, k] · ( Σ_{l < 512} x[k, l] · w[l, c] ) ) + b[c].

  The kernel's products accumulate into zero blocks, which add nothing (0 + s = s for every extended real s), and each
  contracts one axis, so at (r, c) they are these sums (Proof/KernelReads.lean); its stored value is therefore the layer
  of its loads (Proof/Payload.lean). The kernel has no grid: every window's one block is its whole array, so the loads
  are the argument arrays and the result array ends holding the layer of them (Proof/FinalArray.lean). The reference's
  two contractions read at (r, c) are the same two sums over the same coordinates, and its bias row repeated over the
  rows reads b[c] (Proof/RefLayer.lean). The two sides group their sums alike, so no product is moved across a sum and
  the equality holds at infinite entries as at finite ones: the hypothesis that the inputs are finite is never used.

  Each program terminates without a fault and leaves its arguments as they were: for the two kernels this is the
  generated frame, for the reference its generated run with the result dropped. The idealized kernel is the kernel's own
  text read on the extended reals (no operation was rewritten), so there is nothing to preserve.
-/
import proofs.«135406_g80427557585491_cont_9to1_m_995_19_alg».proof.Defs
import proofs.«135406_g80427557585491_cont_9to1_m_995_19_alg».proof.Proof.Gen.Kernel
import proofs.«135406_g80427557585491_cont_9to1_m_995_19_alg».proof.Proof.Gen.Kernel.Skeleton
import proofs.«135406_g80427557585491_cont_9to1_m_995_19_alg».proof.Proof.Gen.Kernel.Launch
import proofs.«135406_g80427557585491_cont_9to1_m_995_19_alg».proof.Proof.Gen.Kernel.Points
import proofs.«135406_g80427557585491_cont_9to1_m_995_19_alg».proof.Proof.Gen.Kernel.Frame
import proofs.«135406_g80427557585491_cont_9to1_m_995_19_alg».proof.Proof.Gen.KernelIdeal
import proofs.«135406_g80427557585491_cont_9to1_m_995_19_alg».proof.Proof.Gen.KernelIdeal.Skeleton
import proofs.«135406_g80427557585491_cont_9to1_m_995_19_alg».proof.Proof.Gen.KernelIdeal.Launch
import proofs.«135406_g80427557585491_cont_9to1_m_995_19_alg».proof.Proof.Gen.KernelIdeal.Points
import proofs.«135406_g80427557585491_cont_9to1_m_995_19_alg».proof.Proof.Gen.KernelIdeal.Frame
import proofs.«135406_g80427557585491_cont_9to1_m_995_19_alg».proof.Proof.Gen.ReferenceIdeal
import proofs.«135406_g80427557585491_cont_9to1_m_995_19_alg».proof.Proof.Gen.Pre_finite_inputs
import proofs.«135406_g80427557585491_cont_9to1_m_995_19_alg».proof.Proof.Gen.KernelIdeal.Value
import proofs.«135406_g80427557585491_cont_9to1_m_995_19_alg».proof.Proof.Gen.ReferenceIdeal.Run
import proofs.«135406_g80427557585491_cont_9to1_m_995_19_alg».proof.Proof.Gen.ReferenceIdeal.Read
import proofs.«135406_g80427557585491_cont_9to1_m_995_19_alg».proof.Proof.FinalArray
import proofs.«135406_g80427557585491_cont_9to1_m_995_19_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its four arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing is owed. -/
theorem preserves : Cert.preserves_Kernel_KernelIdeal := trivial

/-- From memories that agree on the four arguments both programs end with the layer of those arguments in their result:
    the kernel by its run read back to the layer, the reference by its run, whose last stage is the layer. -/
theorem algebraic : Cert.algebraic_KernelIdeal_ReferenceIdeal := by
  intro m ρ m' ρ' _ hagree
  refine ⟨fun c => Cert.Gcn.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Gcn.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Gcn.reference_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
